-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x1 : Shape := ⟨4, ![4, 1, 2048, 1]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S4x1x2048x1 : S_.BroadcastsInDim S4x1x2048x1 (![] : Fin 0 → Fin S4x1x2048x1.rank)
  reducesTo_S4x1x2048x1_S_d0_1_2_3 : S4x1x2048x1.ReducesTo [0, 1, 2, 3] S_

variable [Facts]

def fn_part1 {F : FTy → Type} [FloatOps F] (main_v13 : IVec S_ 1) (main_v16 : IVec S4x1x2048x1 1) : IVec S_ 1 :=
  let main_c_5 : IVec S_ 1 := constantI S_ 1 1#1
  let main_v17 : IVec S_ 1 := (fun x v => Host.reduce IntOp.andi x v reducesTo_S4x1x2048x1_S_d0_1_2_3 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S4x16x2048x64 .f32) (main_arg3 : FVec F S4x1x2048x1 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S4x1x2048x1 .f32 := Host.absf main_arg3
  let main_cst_4 : FVec F S_ .f32 := constant S_ .f32 0x7F800000#32
  let main_v15 : FVec F S4x1x2048x1 .f32 := broadcastInDim S4x1x2048x1 ![] bcast_S_S4x1x2048x1 main_cst_4
  let main_v16 : IVec S4x1x2048x1 1 := cmpf .olt main_v14 main_v15
  fn_part1 (F := F) main_v13 main_v16
-- ==== Kernel.lean ====
abbrev S4x16x2048x64 : Shape := ⟨4, ![4, 16, 2048, 64]⟩
abbrev S4x1x2048x1 : Shape := ⟨4, ![4, 1, 2048, 1]⟩
abbrev S1x1x512x64 : Shape := ⟨4, ![1, 1, 512, 64]⟩
abbrev S1x1x2048x64 : Shape := ⟨4, ![1, 1, 2048, 64]⟩
abbrev S1x1x2048x1 : Shape := ⟨4, ![1, 1, 2048, 1]⟩
abbrev S512x64 : Shape := ⟨2, ![512, 64]⟩
abbrev S2048x64 : Shape := ⟨2, ![2048, 64]⟩
abbrev S2048x1 : Shape := ⟨2, ![2048, 1]⟩
abbrev S64x2048 : Shape := ⟨2, ![64, 2048]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x1, .f32⟩
  | .hbm, ⟨4, _⟩ => ⟨S4x16x2048x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x1, .f32⟩
  | .local _ .vmem, ⟨7, _⟩ => ⟨S1x1x2048x1, .f32⟩
  | .local _ .vmem, ⟨8, _⟩ => ⟨S1x1x512x64, .f32⟩
  | .local _ .vmem, ⟨9, _⟩ => ⟨S1x1x512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x2048x1_S1x1x2048x1_0_0_0_0 : ∀ a, (![0, 0, 0, 0] : Fin 4 → Nat) a + S1x1x2048x1.size a ≤ S1x1x2048x1.size a
  h_S1x1x2048x1 : 0 < S1x1x2048x1.numel
  shapeCasts_S1x1x2048x1_S2048x1 : S1x1x2048x1.ShapeCasts S2048x1
  bitsLt_bf16_f32 : FTy.bits .bf16 < FTy.bits .f32
  transposes_S2048x64_p1_0_S64x2048 : S2048x64.Transposes [1, 0] S64x2048
  broadcasts_S2048x1_S2048x64 : S2048x1.Broadcasts S2048x64
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x1.size a ≤ S4x1x2048x1.size a
  hwx0_3 : ∀ i : grid0.Coords, EltTy.bits .f32 = 32 ∨ (Rect.block (s := S4x1x2048x1) S1x1x2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x2048x1 : Shape := ⟨4, ![4, 1, 2048, 1]⟩
abbrev S4x16x2048x2048 : Shape := ⟨4, ![4, 16, 2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x1, .f32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S4x16x2048x64, .f32⟩
  | .hbm, ⟨9, _⟩ => ⟨S4x16x2048x64, .f32⟩
  | .hbm, ⟨10, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x1x2048x1_S4x16x2048x64_0_1_2_3 : S4x1x2048x1.BroadcastsInDim S4x16x2048x64 (![0, 1, 2, 3] : Fin 4 → Fin S4x16x2048x64.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Scaled attention scores without a softmax, applied to gated values: for a batch b, a head h, a query row n and a
  feature d,

      out[b, h, n, d] = Σ_m score[b, h, n, m] · (V[b, h, m, d] · x[b, 0, m, 0]),

  where the score of query row n against key row m is the dot product of Q[b, h, n, ·] and K[b, h, m, ·] scaled by 1/8.
  The scale can be applied to each entry of the query row before the dot product (`scoreEarly`), or to the finished dot
  product as a division by 8 (`scoreLate`). Over the real numbers the two agree, because multiplication distributes over
  the finite sum; on the extended reals that needs the entries of Q and K to be real numbers, which is the one place the
  finiteness of the inputs is used. The gate V · x plays no part in it.
-/
import Idealize.ShloMosaic.PureOps.Ideal
import Idealize.ShloMosaic.Lib.ValueIdx

noncomputable section

open scoped BigOperators

namespace Cert.Attn

open Idealize.ShloMosaic Idealize.ShloMosaic.ValueIdx

/-- The shape of Q, K, V and of the result. -/
abbrev QKV : Shape := ⟨4, ![4, 16, 2048, 64]⟩
/-- The shape of the gate x. -/
abbrev Gate : Shape := ⟨4, ![4, 1, 2048, 1]⟩

/-- The word 0x3E000000 is the real number 1/8. -/
theorem ofBits_eighth : Ideal.ofBits .f32 0x3E000000#32 = ((1 / 8 : ℝ) : EReal) := by
  simp [Ideal.ofBits, Ideal.ieee, -EReal.coe_mul]; norm_num

/-- The word 0x41000000 is the real number 8. -/
theorem ofBits_eight : Ideal.ofBits .f32 0x41000000#32 = ((8 : ℝ) : EReal) := by
  simp [Ideal.ofBits, Ideal.ieee, -EReal.coe_mul]; norm_num

/-- A finite sum of real numbers, read in the extended reals, is the sum of its terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (Q K V : QKV.Idx → EReal) (X : Gate.Idx → EReal)

/-- The score with each query entry scaled by 1/8 before the dot product. -/
def scoreEarly (b : Fin 4) (h : Fin 16) (n m : Fin 2048) : EReal :=
  ∑ e : Fin 64, (Q (ix4 b h n e) * Ideal.ofBits .f32 0x3E000000#32) * K (ix4 b h m e)

/-- The score with the finished dot product divided by 8. -/
def scoreLate (b : Fin 4) (h : Fin 16) (n m : Fin 2048) : EReal :=
  Ideal.div (∑ e : Fin 64, Q (ix4 b h n e) * K (ix4 b h m e)) (Ideal.ofBits .f32 0x41000000#32)

/-- The gated value at key row m and feature d. -/
def gated (b : Fin 4) (h : Fin 16) (m : Fin 2048) (d : Fin 64) : EReal :=
  V (ix4 b h m d) * X (ix4 b (0 : Fin 1) m (0 : Fin 1))

/-- The result with the early scale, at explicit coordinates, -/
def outEarlyAt (b : Fin 4) (h : Fin 16) (n : Fin 2048) (d : Fin 64) : EReal :=
  ∑ m : Fin 2048, scoreEarly Q K b h n m * gated V X b h m d

/-- and with the late scale. -/
def outLateAt (b : Fin 4) (h : Fin 16) (n : Fin 2048) (d : Fin 64) : EReal :=
  ∑ m : Fin 2048, scoreLate Q K b h n m * gated V X b h m d

/-- The whole result array, early scale, -/
def outEarly : QKV.Idx → EReal := fun i => outEarlyAt Q K V X (i 0) (i 1) (i 2) (i 3)

/-- and late scale. -/
def outLate : QKV.Idx → EReal := fun i => outLateAt Q K V X (i 0) (i 1) (i 2) (i 3)

variable {Q K}

/-- Where Q and K hold real numbers, scaling before the dot product and dividing after it give the same score:
    Σ_e (q_e · 1/8) · k_e = (Σ_e q_e · k_e) · 1/8 over the reals. -/
theorem scoreLate_eq_scoreEarly (hQ : ∀ i, ∃ r : ℝ, Q i = (r : EReal)) (hK : ∀ i, ∃ r : ℝ, K i = (r : EReal))
    (b : Fin 4) (h : Fin 16) (n m : Fin 2048) : scoreLate Q K b h n m = scoreEarly Q K b h n m := by
  choose q hq using hQ
  choose k hk using hK
  unfold scoreLate scoreEarly
  rw [ofBits_eight, ofBits_eighth, Ideal.div_coe (by norm_num : (8 : ℝ) ≠ 0)]
  simp only [hq, hk, ← EReal.coe_mul, ← coe_sum]
  rw [Finset.sum_mul]
  refine congrArg _ (Finset.sum_congr rfl fun e _ => ?_)
  ring

/-- So the two results agree wherever Q and K hold real numbers, whatever V and x hold. -/
theorem outLate_eq_outEarly (hQ : ∀ i, ∃ r : ℝ, Q i = (r : EReal)) (hK : ∀ i, ∃ r : ℝ, K i = (r : EReal)) :
    outLate Q K V X = outEarly Q K V X := by
  funext i
  unfold outLate outEarly outLateAt outEarlyAt
  exact Finset.sum_congr rfl fun m _ => congrArg (· * gated V X (i 0) (i 1) m (i 3)) (scoreLate_eq_scoreEarly hQ hK (i 0) (i 1) (i 2) m)

end Cert.Attn

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibUnitAxes.lean ====
/-
  Two leading unit axes: a pipelined block of a rank-4 array is [1, 1, a, b], and the body works on it as an [a, b] matrix.

  * A [1, 1, a, b] block cast to [a, b] reads, at (r, c), the block at (0, 0, r, c).
  * An [a, b] matrix cast to a [1, 1, a, b] block reads, at (u, v, r, c), the matrix at (r, c): u and v can only be 0.

  Both are the row-major positions agreeing: ((0 · 1 + 0) · a + r) · b + c = r · b + c.
-/
import Idealize.ShloMosaic.Lib.Pipeline.Value
import Idealize.ShloMosaic.Lib.ValueIdx

noncomputable section

namespace Idealize.ShloMosaic.UnitAxes

open Idealize.ShloMosaic Idealize.ShloMosaic.ValueIdx

variable {α : Type}

/-- A [1, 1, a, b] block cast to [a, b] reads, at (r, c), the block at (0, 0, r, c). -/
theorem shapeCast_11ab_ab_apply {a b : ℕ} (x : (⟨4, ![1, 1, a, b]⟩ : Shape).Idx → α)
    (h : (⟨4, ![1, 1, a, b]⟩ : Shape).ShapeCasts ⟨2, ![a, b]⟩) (r : Fin a) (c : Fin b) :
    shapeCast ⟨2, ![a, b]⟩ x h (ix2 r c) = x (ix4 (0 : Fin 1) (0 : Fin 1) r c) :=
  shapeCast_apply x h _ _ (by
    rw [Shape.rowMajor_val_two, Shape.rowMajor_val_four]
    show ((0 * 1 + 0) * a + r.val) * b + c.val = r.val * b + c.val
    simp)

/-- An [a, b] matrix cast to a [1, 1, a, b] block reads, at (u, v, r, c), the matrix at (r, c). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (r : Fin a) (c : Fin b) :
    shapeCast ⟨4, ![1, 1, a, b]⟩ x h (ix4 u v r c) = x (ix2 r c) :=
  shapeCast_apply x h _ _ (by
    have hu : u.val = 0 := by omega
    have hv : v.val = 0 := by omega
    rw [Shape.rowMajor_val_two, Shape.rowMajor_val_four]
    show r.val * b + c.val = ((u.val * 1 + v.val) * a + r.val) * b + c.val
    rw [hu, hv]
    simp)

/-- An index of a [1, 1, a, b] block is (0, 0, r, c) for its last two coordinates. -/
theorem eq_ix4_zero {a b : ℕ} (j : (⟨4, ![1, 1, a, b]⟩ : Shape).Idx) : j = ix4 (0 : Fin 1) (0 : Fin 1) (j 2) (j 3) := by
  funext d
  match d with
  | ⟨0, _⟩ => exact Fin.ext (by show (j 0).val = 0; have h : (j 0).val < 1 := (j 0).isLt; omega)
  | ⟨1, _⟩ => exact Fin.ext (by show (j 1).val = 0; have h : (j 1).val < 1 := (j 1).isLt; omega)
  | ⟨2, _⟩ => rfl
  | ⟨3, _⟩ => rfl

end Idealize.ShloMosaic.UnitAxes

end
-- ==== Proof.KernelBlock.lean ====
/-
  One grid point's block of the result, entry by entry. The body holds a 512-row block of Q, all 2048 rows of K and V for
  the same batch and head, and the 2048 gate entries of the batch. It scales the query block by 1/8, multiplies it with
  the transposed keys (the scores), multiplies the scores with the gated values V · x, and stores the 512 × 64 product.
  Read at row r and feature d that is

      Σ_m (Σ_e (q[r, e] · 1/8) · k[m, e]) · (v[m, d] · x[m]):

  each matrix product into the zero accumulator is the plain sum of products, a change of float format is the identity
  on the extended reals, the transpose swaps the two coordinates, and the gate column is repeated along the features.
-/
import proofs.«164045_j59682865545947_1_alg».proof.Proof.Gen.KernelIdeal.Skeleton
import proofs.«164045_j59682865545947_1_alg».proof.Proof.LibPlainDot
import proofs.«164045_j59682865545947_1_alg».proof.Proof.LibKeepdims
import proofs.«164045_j59682865545947_1_alg».proof.Proof.LibUnitAxes
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The transposed key block reads, at (e, m), the key block at (m, e). -/
theorem keysT_apply (k : FVec Ideal S2048x64 .bf16) (e : Fin 64) (m : Fin 2048) :
    transpose S64x2048 [1, 0] k transposes_S2048x64_p1_0_S64x2048 (ix2 e m) = k (ix2 m e) :=
  transpose_apply [1, 0] k transposes_S2048x64_p1_0_S64x2048 (ix2 e m) (ix2 m e) fun b => by
    match b with
    | ⟨0, _⟩ => rfl
    | ⟨1, _⟩ => rfl

/-- The body's stored block at row r and feature d. -/
theorem pay_apply (x0 : Vec Ideal S1x1x512x64 .f32) (x1 x2 : Vec Ideal S1x1x2048x64 .f32) (x3 : Vec Ideal S1x1x2048x1 .f32)
    (r : Fin 512) (d : Fin 64) :
    k0_pay1 (F := Ideal) x0 x1 x2 x3 (ix4 (0 : Fin 1) (0 : Fin 1) r d)
      = ∑ m : Fin 2048, (∑ e : Fin 64, (x0 (ix4 (0 : Fin 1) (0 : Fin 1) r e) * Ideal.ofBits .f32 0x3E000000#32)
            * x1 (ix4 (0 : Fin 1) (0 : Fin 1) m e))
          * (x2 (ix4 (0 : Fin 1) (0 : Fin 1) m d) * x3 (ix4 (0 : Fin 1) (0 : Fin 1) m (0 : Fin 1))) := by
  unfold k0_pay1
  dsimp only
  -- the stored block is the second product, cast back to a [1, 1, 512, 64] block
  refine (UnitAxes.shapeCast_ab_11ab_apply _ shapeCasts_S512x64_S1x1x512x64 (0 : Fin 1) (0 : Fin 1) r d).trans ?_
  refine (PlainDot.matmul_zero_apply (M := 512) (K := 2048) (N := 64) none _ _ r d).trans ?_
  refine Finset.sum_congr rfl fun m _ => ?_
  refine congrArg₂ (fun a b : EReal => a * b) ?_ ?_
  · -- the score of query row r against key row m: the first product
    refine (PlainDot.matmul_zero_apply (M := 512) (K := 64) (N := 2048) none _ _ r m).trans ?_
    refine Finset.sum_congr rfl fun e _ => ?_
    refine congrArg₂ (fun a b : EReal => a * b) ?_ ?_
    · exact congrArg (fun a : EReal => a * Ideal.ofBits .f32 0x3E000000#32)
        (UnitAxes.shapeCast_11ab_ab_apply x0 shapeCasts_S1x1x512x64_S512x64 r e)
    · refine (keysT_apply _ e m).trans ?_
      exact UnitAxes.shapeCast_11ab_ab_apply x1 shapeCasts_S1x1x2048x64_S2048x64 m e
  · -- the gated value at key row m and feature d
    refine congrArg₂ (fun a b : EReal => a * b) ?_ ?_
    · exact UnitAxes.shapeCast_11ab_ab_apply x2 shapeCasts_S1x1x2048x64_S2048x64 m d
    · refine (Keepdims.broadcastTo_a1_ab_apply _ broadcasts_S2048x1_S2048x64 m d).trans ?_
      exact UnitAxes.shapeCast_11ab_ab_apply x3 shapeCasts_S1x1x2048x1_S2048x1 m (0 : Fin 1)

end Cert.KernelIdeal.Block

end
-- ==== Proof.KernelArray.lean ====
/-
  From blocks to the whole result. The grid has 4 × 16 × 4 points (batch b, head h, query block q). At the point
  (b, h, q) the body sees rows 512 q … 512 q + 511 of Q[b, h], all of K[b, h] and V[b, h], and the gate column x[b, 0],
  and what it writes back is rows 512 q … 512 q + 511 of the early-scaled result of the specification (the 1/8 applied
  to the query entries). The 256 output blocks tile the result array — the block holding row n of (b, h) is the one at
  q = n / 512 — so after the run the array is that result everywhere.
-/
import proofs.«164045_j59682865545947_1_alg».proof.Proof.Gen.KernelIdeal.Value
import proofs.«164045_j59682865545947_1_alg».proof.Proof.KernelBlock
import proofs.«164045_j59682865545947_1_alg».proof.Proof.Spec
import Idealize.ShloMosaic.Lib.Pipeline.Value

set_option maxRecDepth 16384

noncomputable section

open scoped BigOperators

namespace Cert.KernelIdeal.Whole

open Cert.KernelIdeal Cert.KernelIdeal.Gen Cert.Attn Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros : (![0, 0, 0, 0] : Fin 4 → Nat) = fun _ => 0 := funext fun a => by fin_cases a <;> rfl

/-- One block of the result from the blocks the body holds: if the query block's row is row (i 2) of Q[i 0, i 1], the
    key and value blocks are K[i 0, i 1] and V[i 0, i 1] and the gate block is x[i 0, 0], then the stored entry is the
    early-scaled result at i. -/
theorem block_value (A0 A1 A2 : QKV.Idx → EReal) (A3 : Gate.Idx → EReal)
    (x0 : Vec Ideal S1x1x512x64 .f32) (x1 x2 : Vec Ideal S1x1x2048x64 .f32) (x3 : Vec Ideal S1x1x2048x1 .f32)
    (y : S1x1x512x64.Idx) (i : QKV.Idx)
    (h0 : ∀ e : Fin 64, x0 (ix4 (0 : Fin 1) (0 : Fin 1) (y 2) e) = A0 (ix4 (i 0) (i 1) (i 2) e))
    (h1 : ∀ (k : Fin 2048) (e : Fin 64), x1 (ix4 (0 : Fin 1) (0 : Fin 1) k e) = A1 (ix4 (i 0) (i 1) k e))
    (h2 : ∀ k : Fin 2048, x2 (ix4 (0 : Fin 1) (0 : Fin 1) k (y 3)) = A2 (ix4 (i 0) (i 1) k (i 3)))
    (h3 : ∀ k : Fin 2048, x3 (ix4 (0 : Fin 1) (0 : Fin 1) k (0 : Fin 1)) = A3 (ix4 (i 0) (0 : Fin 1) k (0 : Fin 1))) :
    k0_pay1 (F := Ideal) x0 x1 x2 x3 y = outEarly A0 A1 A2 A3 i := by
  rw [UnitAxes.eq_ix4_zero y]
  refine (Block.pay_apply x0 x1 x2 x3 (y 2) (y 3)).trans ?_
  unfold outEarly outEarlyAt scoreEarly gated
  refine Finset.sum_congr rfl fun k _ => ?_
  rw [h2 k, h3 k]
  refine congrArg (fun s : EReal => s * (A2 (ix4 (i 0) (i 1) k (i 3)) * A3 (ix4 (i 0) (0 : Fin 1) k (0 : Fin 1)))) ?_
  refine Finset.sum_congr rfl fun e _ => ?_
  rw [h0 e, h1 k e]

/-- The printed index maps over the grid: the query and result blocks move together along batch, head and query block;
    the key and value blocks follow batch and head only; the gate block follows the batch only. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = win0_4.index t (2 : Fin 4) ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 4) = win0_4.index t (0 : Fin 4) ∧ win0_3.index t (1 : Fin 4) = 0
    ∧ win0_3.index t (2 : Fin 4) = 0 ∧ win0_3.index t (3 : Fin 4) = 0
    ∧ win0_4.index t (3 : Fin 4) = 0 :=
  (by decide +kernel : ∀ t : Fin grid0.N, _)

/-- The grid point of batch b, head h and query block q. -/
def pointOf (b : Fin 4) (h : Fin 16) (q : Fin 4) : Fin grid0.N :=
  ⟨b.val * 64 + h.val * 4 + q.val, by have := b.isLt; have := h.isLt; have := q.isLt; have := N_0; omega⟩

/-- Its result block is block (b, h, q, 0). -/
theorem idx_pointOf : ∀ (b : Fin 4) (h : Fin 16) (q : Fin 4), win0_4.index (pointOf b h q) = ![b.val, h.val, q.val, 0] := by
  decide +kernel

/-- The result array of the specification, early scale, of the arrays as the region finds them. -/
abbrev result (c : Dev nD) : Buf (Elt Ideal) ((c : Thread nD τ).loc main_v0) :=
  outEarly (V m c main_arg0) (V m c main_arg1) (V m c main_arg2) (V m c main_arg3)

/-- What a point writes back is its block of that result. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zeros]
  simp only [View.ld_unit_zero (S := S1x1x512x64) zeros, View.ld_unit_zero (S := S1x1x2048x64) zeros,
    View.ld_unit_zero (S := S1x1x2048x1) zeros]
  obtain ⟨q0, q1, q2, q3, k0, k1, k2, k3, v0, v1, v2, v3, g0, g1, g2, g3, o3⟩ := idx_facts t
  funext y
  have hy0 : (y 0).val < 1 := (y 0).isLt
  have hy1 : (y 1).val < 1 := (y 1).isLt
  refine block_value (V m c main_arg0) (V m c main_arg1) (V m c main_arg2) (V m c main_arg3)
    (iblk m c 0 t) (iblk m c 1 t) (iblk m c 2 t) (iblk m c 3 t) y (((cfg0.win 4).blk t).view.emb y) ?_ ?_ ?_ ?_
  · intro e
    show V m c main_arg0 (((cfg0.win 0).blk t).view.emb (ix4 (0 : Fin 1) (0 : Fin 1) (y 2) e)) = _
    refine congrArg (V m c main_arg0) (funext fun a => Fin.ext ?_)
    match a with
    | ⟨0, _⟩ => show win0_0.index t (0 : Fin 4) * 1 + 1 * 0 = win0_4.index t (0 : Fin 4) * 1 + 1 * (y 0).val; omega
    | ⟨1, _⟩ => show win0_0.index t (1 : Fin 4) * 1 + 1 * 0 = win0_4.index t (1 : Fin 4) * 1 + 1 * (y 1).val; omega
    | ⟨2, _⟩ => show win0_0.index t (2 : Fin 4) * 512 + 1 * (y 2).val = win0_4.index t (2 : Fin 4) * 512 + 1 * (y 2).val; omega
    | ⟨3, _⟩ => show win0_0.index t (3 : Fin 4) * 64 + 1 * e.val = e.val; omega
  · intro k e
    show V m c main_arg1 (((cfg0.win 1).blk t).view.emb (ix4 (0 : Fin 1) (0 : Fin 1) k e)) = _
    refine congrArg (V m c main_arg1) (funext fun a => Fin.ext ?_)
    match a with
    | ⟨0, _⟩ => show win0_1.index t (0 : Fin 4) * 1 + 1 * 0 = win0_4.index t (0 : Fin 4) * 1 + 1 * (y 0).val; omega
    | ⟨1, _⟩ => show win0_1.index t (1 : Fin 4) * 1 + 1 * 0 = win0_4.index t (1 : Fin 4) * 1 + 1 * (y 1).val; omega
    | ⟨2, _⟩ => show win0_1.index t (2 : Fin 4) * 2048 + 1 * k.val = k.val; omega
    | ⟨3, _⟩ => show win0_1.index t (3 : Fin 4) * 64 + 1 * e.val = e.val; omega
  · intro k
    show V m c main_arg2 (((cfg0.win 2).blk t).view.emb (ix4 (0 : Fin 1) (0 : Fin 1) k (y 3))) = _
    refine congrArg (V m c main_arg2) (funext fun a => Fin.ext ?_)
    match a with
    | ⟨0, _⟩ => show win0_2.index t (0 : Fin 4) * 1 + 1 * 0 = win0_4.index t (0 : Fin 4) * 1 + 1 * (y 0).val; omega
    | ⟨1, _⟩ => show win0_2.index t (1 : Fin 4) * 1 + 1 * 0 = win0_4.index t (1 : Fin 4) * 1 + 1 * (y 1).val; omega
    | ⟨2, _⟩ => show win0_2.index t (2 : Fin 4) * 2048 + 1 * k.val = k.val; omega
    | ⟨3, _⟩ => show win0_2.index t (3 : Fin 4) * 64 + 1 * (y 3).val = win0_4.index t (3 : Fin 4) * 64 + 1 * (y 3).val; omega
  · intro k
    show V m c main_arg3 (((cfg0.win 3).blk t).view.emb (ix4 (0 : Fin 1) (0 : Fin 1) k (0 : Fin 1))) = _
    refine congrArg (V m c main_arg3) (funext fun a => Fin.ext ?_)
    match a with
    | ⟨0, _⟩ => show win0_3.index t (0 : Fin 4) * 1 + 1 * 0 = win0_4.index t (0 : Fin 4) * 1 + 1 * (y 0).val; omega
    | ⟨1, _⟩ => show win0_3.index t (1 : Fin 4) * 1 + 1 * 0 = 0; omega
    | ⟨2, _⟩ => show win0_3.index t (2 : Fin 4) * 2048 + 1 * k.val = k.val; omega
    | ⟨3, _⟩ => show win0_3.index t (3 : Fin 4) * 1 + 1 * 0 = 0; omega

/-- An index of the array is in a point's result block iff each coordinate is in the block's range on its axis. -/
theorem mem_blk (t : Fin cfg0.N) (i : S4x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v0).slice (win0_4.rect t)).set ↔ _
  rw [View.set_slice_whole, Rect.mem_set_unit]
  exact Iff.rfl

/-- Every entry of the result array is in some point's block: row n of (b, h) is in the block of query block n / 512. -/
theorem cover (i : S4x16x2048x64.Idx) : ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  have ht := idx_pointOf ⟨(i 0).val, hi0⟩ ⟨(i 1).val, hi1⟩ ⟨(i 2).val / 512, by omega⟩
  have p0 : win0_4.index (pointOf ⟨(i 0).val, hi0⟩ ⟨(i 1).val, hi1⟩ ⟨(i 2).val / 512, by omega⟩) (0 : Fin 4) = (i 0).val := congrFun ht 0
  have p1 : win0_4.index (pointOf ⟨(i 0).val, hi0⟩ ⟨(i 1).val, hi1⟩ ⟨(i 2).val / 512, by omega⟩) (1 : Fin 4) = (i 1).val := congrFun ht 1
  have p2 : win0_4.index (pointOf ⟨(i 0).val, hi0⟩ ⟨(i 1).val, hi1⟩ ⟨(i 2).val / 512, by omega⟩) (2 : Fin 4) = (i 2).val / 512 := congrFun ht 2
  have p3 : win0_4.index (pointOf ⟨(i 0).val, hi0⟩ ⟨(i 1).val, hi1⟩ ⟨(i 2).val / 512, by omega⟩) (3 : Fin 4) = 0 := congrFun ht 3
  refine ⟨pointOf ⟨(i 0).val, hi0⟩ ⟨(i 1).val, hi1⟩ ⟨(i 2).val / 512, by omega⟩, flush0_4 _, ?_⟩
  rw [mem_blk]
  intro a
  match a with
  | ⟨0, _⟩ => show win0_4.index _ (0 : Fin 4) * 1 ≤ (i 0).val ∧ (i 0).val < win0_4.index _ (0 : Fin 4) * 1 + 1; omega
  | ⟨1, _⟩ => show win0_4.index _ (1 : Fin 4) * 1 ≤ (i 1).val ∧ (i 1).val < win0_4.index _ (1 : Fin 4) * 1 + 1; omega
  | ⟨2, _⟩ => show win0_4.index _ (2 : Fin 4) * 512 ≤ (i 2).val ∧ (i 2).val < win0_4.index _ (2 : Fin 4) * 512 + 512; omega
  | ⟨3, _⟩ => show win0_4.index _ (3 : Fin 4) * 64 ≤ (i 3).val ∧ (i 3).val < win0_4.index _ (3 : Fin 4) * 64 + 64; omega

/-- The result array after the run. -/
theorem final (c : Dev nD) : (dats m 0 c).arrAt 4 cfg0.N = result m c :=
  (dats m 0 c).arrAt_eq_of_cover 4 (result m c) (fun t _ => flushed_eq m c t) cover

/-- The run: the result array ends at the early-scaled result of the argument arrays, which end unchanged. -/
theorem run : θ_run defs (onTc (τ := τ) (main (F := Ideal))) ⟨m, fun _ => 0, ρ⟩ fun r => ∀ c : Dev nD,
      r.2.mem ((c : Thread nD τ).loc main_v0) = outEarly (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.Reference.lean ====
/-
  The reference program's result, one entry at a time: the dot product of a query row and a key row over the 64 features,
  divided by 8, multiplied by the gated value V · x, and summed over the 2048 key rows — the late-scaled result of the
  specification.
-/
import proofs.«164045_j59682865545947_1_alg».proof.Proof.Gen.ReferenceIdeal.Read
import proofs.«164045_j59682865545947_1_alg».proof.Proof.Spec

noncomputable section

open scoped BigOperators

namespace Cert.ReferenceIdeal.RefValue

open Cert.ReferenceIdeal Cert.ReferenceIdeal.Read Cert.Attn Idealize.ShloMosaic Idealize.ShloMosaic.ValueIdx

/-- The query row's entry the first contraction reads for result entry i, key row k and feature e. -/
theorem q_idx (i : S4x16x2048x64.Idx) (k : Fin 2048) (e : Fin 64) :
    lidx_main_v0 (lidx_main_v5 i k) e = ix4 (i 0) (i 1) (i 2) e :=
  funext fun a => Fin.ext (by
    match a with
    | ⟨0, _⟩ => rfl
    | ⟨1, _⟩ => rfl
    | ⟨2, _⟩ => rfl
    | ⟨3, _⟩ => rfl)

/-- The key row's entry it reads. -/
theorem k_idx (i : S4x16x2048x64.Idx) (k : Fin 2048) (e : Fin 64) :
    ridx_main_v0 (lidx_main_v5 i k) e = ix4 (i 0) (i 1) k e :=
  funext fun a => Fin.ext (by
    match a with
    | ⟨0, _⟩ => rfl
    | ⟨1, _⟩ => rfl
    | ⟨2, _⟩ => rfl
    | ⟨3, _⟩ => rfl)

/-- The value entry the second contraction reads at key row k. -/
theorem v_idx (i : S4x16x2048x64.Idx) (k : Fin 2048) :
    ridx_main_v5 i k = ix4 (i 0) (i 1) k (i 3) :=
  funext fun a => Fin.ext (by
    match a with
    | ⟨0, _⟩ => rfl
    | ⟨1, _⟩ => rfl
    | ⟨2, _⟩ => rfl
    | ⟨3, _⟩ => rfl)

/-- The gate entry broadcast to it. -/
theorem x_idx (i : S4x16x2048x64.Idx) (k : Fin 2048) :
    idx_main_v3 (ridx_main_v5 i k) = ix4 (i 0) (0 : Fin 1) k (0 : Fin 1) :=
  funext fun a => Fin.ext (by
    match a with
    | ⟨0, _⟩ => rfl
    | ⟨1, _⟩ => rfl
    | ⟨2, _⟩ => rfl
    | ⟨3, _⟩ => rfl)

/-- The reference's result array is the late-scaled result of the specification. -/
theorem result_eq (x0 x1 x2 : (⟨S4x16x2048x64, .f32⟩ : BufTy).Contents (Elt Ideal)) (x3 : (⟨S4x1x2048x1, .f32⟩ : BufTy).Contents (Elt Ideal)) :
    val_main_v5 (F := Ideal) x0 x1 x2 x3 = outLate x0 x1 x2 x3 := by
  funext i
  rw [val_main_v5_apply]
  unfold outLate outLateAt scoreLate gated
  refine Finset.sum_congr rfl fun k _ => ?_
  rw [val_main_v2_apply, val_main_v0_apply, val_main_v1_apply, val_main_cst_apply, val_main_v4_apply, val_main_v3_apply]
  simp only [q_idx, k_idx, v_idx, x_idx, Ideal.hostDivf_def, Ideal.mulf_def, Ideal.ofBits_def]
  rfl

end Cert.ReferenceIdeal.RefValue

end
-- ==== Proof.Finite.lean ====
/-
  The precondition says that every entry of every input has a magnitude below +inf. On the extended reals the magnitude
  is max x (-x), which is +inf at both infinities, so every entry is a real number. Only Q and K are needed later.
-/
import proofs.«164045_j59682865545947_1_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic

variable [Facts]

instance : Subsingleton S_.Idx := ⟨fun a b => funext fun d => d.elim0⟩

/-- The word 0x7F800000 is +inf. -/
theorem ofBits_inf : Ideal.ofBits .f32 0x7F800000#32 = ⊤ := by
  simp [Ideal.ofBits, Ideal.ieee]

/-- A one-bit word made from a decided proposition is 1 only if the proposition holds. -/
theorem of_ofBool_eq_one {p : Prop} [Decidable p] (h : BitVec.ofBool (decide p) = 1#1) : p := by
  by_contra hn
  rw [decide_eq_false hn] at h
  exact absurd h (by decide)

/-- An extended real whose magnitude is below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of Q and of K is a real number. -/
theorem real_of_pre (a0 a1 a2 : FVec Ideal S4x16x2048x64 .f32) (a3 : FVec Ideal S4x1x2048x1 .f32)
    (h : fn (F := Ideal) a0 a1 a2 a3 = fun _ => 1#1) :
    (∀ i, ∃ r : ℝ, a0 i = (r : EReal)) ∧ (∀ i, ∃ r : ℝ, a1 i = (r : EReal)) := by
  have h1 := congrFun h ValueIdx.ix0
  dsimp only [fn, fn_part1] at h1
  -- the conjunction of the four checks, taken apart; the first two are Q's and K's
  obtain ⟨h012, -⟩ := IntOp.andi_eq_one.mp h1
  obtain ⟨h01, -⟩ := IntOp.andi_eq_one.mp h012
  obtain ⟨hq, hk⟩ := IntOp.andi_eq_one.mp h01
  have elt : ∀ (a : FVec Ideal S4x16x2048x64 .f32) (i : S4x16x2048x64.Idx),
      cmpf .olt (Host.absf a) (broadcastInDim S4x16x2048x64 ![] Facts.bcast_S_S4x16x2048x64 (constant S_ .f32 0x7F800000#32)) i = 1#1 →
      ∃ r : ℝ, a i = (r : EReal) := by
    intro a i hi
    have hc : Ideal.cmp .olt (max (a i) (-(a i))) (Ideal.ofBits .f32 0x7F800000#32) = 1#1 := hi
    rw [ofBits_inf] at hc
    have hb : BitVec.ofBool (decide (max (a i) (-(a i)) < ⊤)) = 1#1 := hc
    have hlt : max (a i) (-(a i)) < ⊤ := of_ofBool_eq_one hb
    exact real_of_abs_lt_top _ hlt
  exact ⟨fun i => elt a0 i (Host.reduce_andi_all _ _ _ _ _ hq i), fun i => elt a1 i (Host.reduce_andi_all _ _ _ _ _ hk i)⟩

end Cert.Pre_finite_inputs.Finite

end
-- ==== Proof.lean ====
/-
  The kernel computes attention scores without a softmax and applies them to gated values: per batch and head,
  out = (Q Kᵀ · 1/8) (V · x), the gate x repeated over heads and features. It scales the query block by 1/8 before the
  first matrix product; the reference divides the finished product by 8. At the ideal values both matrix products are plain
  sums of products, so the two results differ only in where the factor 1/8 sits, and they agree because multiplication by a
  real number distributes over a finite sum of real numbers — which is where the finiteness of Q and K is used.

  The three frames are the generated ones (the reference's is its generated run with the result dropped); the
  idealization rewrote nothing, so its claim is trivial; the value claim sets the kernel's run (the result array as one
  function of the arguments, Proof/KernelArray.lean over Proof/KernelBlock.lean) beside the reference's generated run read
  entry by entry (Proof/Reference.lean), and joins them by the law of Proof/Spec.lean under the finiteness read out of the
  precondition (Proof/Finite.lean).
-/
import proofs.«164045_j59682865545947_1_alg».proof.Defs
import proofs.«164045_j59682865545947_1_alg».proof.Proof.Gen.Kernel
import proofs.«164045_j59682865545947_1_alg».proof.Proof.Gen.Kernel.Frame
import proofs.«164045_j59682865545947_1_alg».proof.Proof.Gen.KernelIdeal
import proofs.«164045_j59682865545947_1_alg».proof.Proof.Gen.KernelIdeal.Frame
import proofs.«164045_j59682865545947_1_alg».proof.Proof.Gen.KernelIdeal.Value
import proofs.«164045_j59682865545947_1_alg».proof.Proof.Gen.ReferenceIdeal
import proofs.«164045_j59682865545947_1_alg».proof.Proof.Gen.ReferenceIdeal.Run
import proofs.«164045_j59682865545947_1_alg».proof.Proof.Gen.ReferenceIdeal.Read
import proofs.«164045_j59682865545947_1_alg».proof.Proof.Gen.Pre_finite_inputs
import proofs.«164045_j59682865545947_1_alg».proof.Proof.Spec
import proofs.«164045_j59682865545947_1_alg».proof.Proof.KernelArray
import proofs.«164045_j59682865545947_1_alg».proof.Proof.Reference
import proofs.«164045_j59682865545947_1_alg».proof.Proof.Finite

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the scaled scores applied to the gated values: the kernel with the 1/8 on the query entries,
    the reference with the division by 8 after the dot product — one array, Q and K being real-valued. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]
  obtain ⟨hQ, hK⟩ := Cert.Pre_finite_inputs.Finite.real_of_pre _ _ _ _ (hpre c)
  exact Cert.Attn.outLate_eq_outEarly _ _ hQ hK

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
